-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S64x64x32x512 : Shape := ⟨4, ![64, 64, 32, 512]⟩
abbrev S512 : Shape := ⟨1, ![512]⟩
abbrev S64x64x32 : Shape := ⟨3, ![64, 64, 32]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S64x64x32x512 : S_.BroadcastsInDim S64x64x32x512 (![] : Fin 0 → Fin S64x64x32x512.rank)
  reducesTo_S64x64x32x512_S_d0_1_2_3 : S64x64x32x512.ReducesTo [0, 1, 2, 3] S_
  bcast_S_S512 : S_.BroadcastsInDim S512 (![] : Fin 0 → Fin S512.rank)
  reducesTo_S512_S_d0 : S512.ReducesTo [0] S_
  bcast_S_S64x64x32 : S_.BroadcastsInDim S64x64x32 (![] : Fin 0 → Fin S64x64x32.rank)
  reducesTo_S64x64x32_S_d0_1_2 : S64x64x32.ReducesTo [0, 1, 2] S_

variable [Facts]

def fn_part1 {F : FTy → Type} [FloatOps F] (main_v13 : IVec S_ 1) (main_v16 : IVec S64x64x32 1) : IVec S_ 1 :=
  let main_c_5 : IVec S_ 1 := constantI S_ 1 1#1
  let main_v17 : IVec S_ 1 := (fun x v => Host.reduce IntOp.andi x v reducesTo_S64x64x32_S_d0_1_2 h_S_) main_v16 main_c_5
  let main_v18 : IVec S_ 1 := andi main_v13 main_v17
  main_v18

def fn {F : FTy → Type} [FloatOps F] (main_arg0 : FVec F S32x512 .f32) (main_arg1 : FVec F S64x64x32x512 .f32) (main_arg2 : FVec F S512 .f32) (main_arg3 : FVec F S64x64x32 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S64x64x32x512 .f32 := Host.absf main_arg1
  let main_cst_0 : FVec F S_ .f32 := constant S_ .f32 0x7F800000#32
  let main_v5 : FVec F S64x64x32x512 .f32 := broadcastInDim S64x64x32x512 ![] bcast_S_S64x64x32x512 main_cst_0
  let main_v6 : IVec S64x64x32x512 1 := cmpf .olt main_v4 main_v5
  let main_c_1 : IVec S_ 1 := constantI S_ 1 1#1
  let main_v7 : IVec S_ 1 := (fun x v => Host.reduce IntOp.andi x v reducesTo_S64x64x32x512_S_d0_1_2_3 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S64x64x32 .f32 := Host.absf main_arg3
  let main_cst_4 : FVec F S_ .f32 := constant S_ .f32 0x7F800000#32
  let main_v15 : FVec F S64x64x32 .f32 := broadcastInDim S64x64x32 ![] bcast_S_S64x64x32 main_cst_4
  let main_v16 : IVec S64x64x32 1 := cmpf .olt main_v14 main_v15
  fn_part1 (F := F) main_v13 main_v16
-- ==== Kernel.lean ====
abbrev S32x512 : Shape := ⟨2, ![32, 512]⟩
abbrev S64x64x32x512 : Shape := ⟨4, ![64, 64, 32, 512]⟩
abbrev S512 : Shape := ⟨1, ![512]⟩
abbrev S64x64x32 : Shape := ⟨3, ![64, 64, 32]⟩
abbrev S1x512 : Shape := ⟨2, ![1, 512]⟩
abbrev S131072x512 : Shape := ⟨2, ![131072, 512]⟩
abbrev S1x131072 : Shape := ⟨2, ![1, 131072]⟩
abbrev S32x131072 : Shape := ⟨2, ![32, 131072]⟩
abbrev S4096x512 : Shape := ⟨2, ![4096, 512]⟩
abbrev S1x4096 : Shape := ⟨2, ![1, 4096]⟩
abbrev S32x4096 : Shape := ⟨2, ![32, 4096]⟩
abbrev S32x64x64x32 : Shape := ⟨4, ![32, 64, 64, 32]⟩

abbrev nBuf : Space → Nat
  | .hbm => 9
  | .vmem => 8
  | .smem => 0
  | _ => 0

abbrev bufTy : (tb : Table) → Fin (tcTables nBuf tb) → BufTy
  | .hbm, ⟨0, _⟩ => ⟨S32x512, .f32⟩
  | .hbm, ⟨1, _⟩ => ⟨S64x64x32x512, .f32⟩
  | .hbm, ⟨2, _⟩ => ⟨S512, .f32⟩
  | .hbm, ⟨3, _⟩ => ⟨S64x64x32, .f32⟩
  | .hbm, ⟨4, _⟩ => ⟨S1x512, .f32⟩
  | .hbm, ⟨5, _⟩ => ⟨S131072x512, .f32⟩
  | .hbm, ⟨6, _⟩ => ⟨S1x131072, .f32⟩
  | .hbm, ⟨7, _⟩ => ⟨S32x131072, .f32⟩
  | .hbm, ⟨8, _⟩ => ⟨S32x64x64x32, .f32⟩
  | .local _ .vmem, ⟨0, _⟩ => ⟨S32x512, .f32⟩
  | .local _ .vmem, ⟨1, _⟩ => ⟨S1x512, .f32⟩
  | .local _ .vmem, ⟨2, _⟩ => ⟨S4096x512, .f32⟩
  | .local _ .vmem, ⟨3, _⟩ => ⟨S4096x512, .f32⟩
  | .local _ .vmem, ⟨4, _⟩ => ⟨S1x4096, .f32⟩
  | .local _ .vmem, ⟨5, _⟩ => ⟨S1x4096, .f32⟩
  | .local _ .vmem, ⟨6, _⟩ => ⟨S32x4096, .f32⟩
  | .local _ .vmem, ⟨7, _⟩ => ⟨S32x4096, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S1x512 : S512.ShapeCasts S1x512
  shapeCasts_S64x64x32x512_S131072x512 : S64x64x32x512.ShapeCasts S131072x512
  shapeCasts_S64x64x32_S1x131072 : S64x64x32.ShapeCasts S1x131072
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S32x512_S32x512_0_0 : ∀ a, (![0, 0] : Fin 2 → Nat) a + S32x512.size a ≤ S32x512.size a
  h_S32x512 : 0 < S32x512.numel
  broadcasts_S1x512_S32x512 : S1x512.Broadcasts S32x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S32x4096 : S1x4096.Broadcasts S32x4096
  inb_S32x4096_S32x4096_0_0 : ∀ a, (![0, 0] : Fin 2 → Nat) a + S32x4096.size a ≤ S32x4096.size a
  h_S32x4096 : 0 < S32x4096.numel
  shapeCasts_S32x131072_S32x64x64x32 : S32x131072.ShapeCasts S32x64x64x32
  dot_S32x512_S4096x512_S32x4096_1_1_0_0_n_n_wf : DotDims.WF S32x512 S4096x512 S32x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x512.size a
  hwx0_0 : ∀ i : grid0.Coords, EltTy.bits .f32 = 32 ∨ (Rect.block (s := S32x512) S32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x131072.size a
  hwx0_3 : ∀ i : grid0.Coords, EltTy.bits .f32 = 32 ∨ (Rect.block (s := S1x131072) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x4096.size a ≤ S32x131072.size a
  hwx0_4 : ∀ i : grid0.Coords, EltTy.bits .f32 = 32 ∨ (Rect.block (s := S32x131072) S32x4096.size (cc0_transform_4 i) (hinb0_4 i)).WholeWords (EltTy.packing .f32)

variable [Facts₀]

def dot_S32x512_S4096x512_S32x4096_1_1_0_0_n_n : DotDims S32x512 S4096x512 S32x4096 where
  lhsContracting := [1]
  rhsContracting := [1]
  lhsNonContracting := [0]
  rhsNonContracting := [0]
  lhsBatch := []
  rhsBatch := []
  wf := dot_S32x512_S4096x512_S32x4096_1_1_0_0_n_n_wf

abbrev win0_0 : Pipeline.Window sig grid0 :=
  Pipeline.Window.ofSpec (Memref.whole main_arg0) S32x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512 : Shape := ⟨2, ![32, 512]⟩
abbrev S64x64x32x512 : Shape := ⟨4, ![64, 64, 32, 512]⟩
abbrev S512 : Shape := ⟨1, ![512]⟩
abbrev S64x64x32 : Shape := ⟨3, ![64, 64, 32]⟩
abbrev S1x512 : Shape := ⟨2, ![1, 512]⟩
abbrev S32x64x64x32 : Shape := ⟨4, ![32, 64, 64, 32]⟩
abbrev S1x64x64x32 : Shape := ⟨4, ![1, 64, 64, 32]⟩

abbrev nBuf : Space → Nat
  | .hbm => 11
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S64x64x32x512, .f32⟩
  | .hbm, ⟨2, _⟩ => ⟨S512, .f32⟩
  | .hbm, ⟨3, _⟩ => ⟨S64x64x32, .f32⟩
  | .hbm, ⟨4, _⟩ => ⟨S1x512, .f32⟩
  | .hbm, ⟨5, _⟩ => ⟨S32x512, .f32⟩
  | .hbm, ⟨6, _⟩ => ⟨S32x512, .f32⟩
  | .hbm, ⟨7, _⟩ => ⟨S32x64x64x32, .f32⟩
  | .hbm, ⟨8, _⟩ => ⟨S1x64x64x32, .f32⟩
  | .hbm, ⟨9, _⟩ => ⟨S32x64x64x32, .f32⟩
  | .hbm, ⟨10, _⟩ => ⟨S32x64x64x32, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S64x64x32_S1x64x64x32_1_2_3 : S64x64x32.BroadcastsInDim S1x64x64x32 (![1, 2, 3] : Fin 3 → Fin S1x64x64x32.rank)
  bcast_S1x64x64x32_S32x64x64x32_0_1_2_3 : S1x64x64x32.BroadcastsInDim S32x64x64x32 (![0, 1, 2, 3] : Fin 4 → Fin S32x64x64x32.rank)
  dot_S32x512_S64x64x32x512_S32x64x64x32_1_3_0_012_n_n_wf : DotDims.WF S32x512 S64x64x32x512 S32x64x64x32 [1] [3] [0] [0, 1, 2] [] []

variable [Facts₀]

def dot_S32x512_S64x64x32x512_S32x64x64x32_1_3_0_012_n_n : DotDims S32x512 S64x64x32x512 S32x64x64x32 where
  lhsContracting := [1]
  rhsContracting := [3]
  lhsNonContracting := [0]
  rhsNonContracting := [0, 1, 2]
  lhsBatch := []
  rhsBatch := []
  wf := dot_S32x512_S64x64x32x512_S32x64x64x32_1_3_0_012_n_n_wf

class Facts : Prop extends Facts₀ where

variable [Facts]
-- ==== Proof.Spec.lean ====
/-
  The function both programs compute, stated once over literal shapes and with no program in sight.

  For a batch row `b`, a scale vector `ℓ` (length 512), a basis `U` of 64·64·32 vectors of length 512 and a bias
  `μ` (one number per basis vector):

      out[b, r, s, c]  =  ( Σ_{d < 512}  (ℓ[d] · style[b, d]) · U[r, s, c, d] )  +  μ[r, s, c].

  `proj` is that function with the basis vectors addressed by their three coordinates `(r, s, c)`; `projFlat` is the
  same function with the basis vectors addressed by one number `n = (r·64 + s)·32 + c` (the row-major position of
  `(r, s, c)`), the scale written as a one-row matrix and the bias as a one-row matrix. `proj_of_flat` says the two
  agree once the flat arrays are the row-major re-readings of the structured ones. Nothing here needs the inputs to be
  finite: the two sides are the same sum of the same products, term by term.
-/
import Idealize.ShloMosaic.PureOps.Ideal
import Idealize.ShloMosaic.Lib.ValueIdx

noncomputable section

namespace Cert.StyleProj

open Idealize.ShloMosaic Idealize.ShloMosaic.ValueIdx

/-- One entry of the result, the basis vector addressed by `(r, s, c)`. -/
def projAt (style : FVec Ideal ⟨2, ![32, 512]⟩ .f32) (basis : FVec Ideal ⟨4, ![64, 64, 32, 512]⟩ .f32)
    (scale : FVec Ideal ⟨1, ![512]⟩ .f32) (bias : FVec Ideal ⟨3, ![64, 64, 32]⟩ .f32)
    (b : Fin 32) (r : Fin 64) (s : Fin 64) (c : Fin 32) : EReal :=
  (∑ k : Fin 512, (scale (ix1 k) * style (ix2 b k)) * basis (ix4 r s c k)) + bias (ix3 r s c)

/-- The whole result, index by index. -/
def proj (style : FVec Ideal ⟨2, ![32, 512]⟩ .f32) (basis : FVec Ideal ⟨4, ![64, 64, 32, 512]⟩ .f32)
    (scale : FVec Ideal ⟨1, ![512]⟩ .f32) (bias : FVec Ideal ⟨3, ![64, 64, 32]⟩ .f32) :
    FVec Ideal ⟨4, ![32, 64, 64, 32]⟩ .f32 :=
  fun i => projAt style basis scale bias (i 0) (i 1) (i 2) (i 3)

/-- One entry of the result, the basis vector addressed by its row-major number `n`. -/
def projFlatAt (style : FVec Ideal ⟨2, ![32, 512]⟩ .f32) (basisRows : FVec Ideal ⟨2, ![131072, 512]⟩ .f32)
    (scaleRow : FVec Ideal ⟨2, ![1, 512]⟩ .f32) (biasRow : FVec Ideal ⟨2, ![1, 131072]⟩ .f32)
    (b : Fin 32) (n : Fin 131072) : EReal :=
  (∑ k : Fin 512, (scaleRow (ix2 (0 : Fin 1) k) * style (ix2 b k)) * basisRows (ix2 n k)) + biasRow (ix2 (0 : Fin 1) n)

/-- The flat result, index by index. -/
def projFlat (style : FVec Ideal ⟨2, ![32, 512]⟩ .f32) (basisRows : FVec Ideal ⟨2, ![131072, 512]⟩ .f32)
    (scaleRow : FVec Ideal ⟨2, ![1, 512]⟩ .f32) (biasRow : FVec Ideal ⟨2, ![1, 131072]⟩ .f32) :
    FVec Ideal ⟨2, ![32, 131072]⟩ .f32 :=
  fun j => projFlatAt style basisRows scaleRow biasRow (j 0) (j 1)

end Cert.StyleProj

end
-- ==== Proof.RefValue.lean ====
/-
  The reference computes `proj`.

  Read one operation at a time, the reference's result at an index `i = (b, r, s, c)` is

      ( Σ_{k < 512}  (scale[k] · style[b, k]) · basis[r, s, c, k] )  +  bias[r, s, c]:

  the scale is broadcast along the batch axis before the product with the style matrix, the contraction runs over the
  last axis of both operands, and the bias is broadcast along the batch axis before the sum. The broadcasts only move
  coordinates, so what is left to check is that each composed coordinate map is the evident one.
-/
import proofs.«129459_j38766374814279_2_alg».proof.Proof.Gen.ReferenceIdeal.Read
import proofs.«129459_j38766374814279_2_alg».proof.Proof.Spec

noncomputable section

namespace Cert.StyleProj

open Cert.ReferenceIdeal Cert.ReferenceIdeal.Read Idealize.ShloMosaic Idealize.ShloMosaic.ValueIdx

/-- The reference's last stage, as a function of the four arguments, is `proj`. -/
theorem reference_eq (x0 : FVec Ideal S32x512 .f32) (x1 : FVec Ideal S64x64x32x512 .f32) (x2 : FVec Ideal S512 .f32)
    (x3 : FVec Ideal S64x64x32 .f32) :
    val_main_v6 (F := Ideal) x0 x1 x2 x3 = proj x0 x1 x2 x3 := by
  funext i
  rw [val_main_v6_apply, val_main_v3_apply, val_main_v5_apply, val_main_v4_apply]
  unfold proj projAt
  refine congrArg₂ (· + ·) (Finset.sum_congr rfl fun k _ => ?_) ?_
  · rw [val_main_v2_apply, val_main_v1_apply, val_main_v0_apply]
    have e0 : idx_main_v0 (idx_main_v1 (lidx_main_v3 i k)) = ix1 k :=
      funext fun a => Fin.ext (by match a with | ⟨0, _⟩ => rfl)
    have e1 : lidx_main_v3 i k = ix2 (i 0) k :=
      funext fun a => Fin.ext (by match a with | ⟨0, _⟩ => rfl | ⟨1, _⟩ => rfl)
    have e2 : ridx_main_v3 i k = ix4 (i 1) (i 2) (i 3) k :=
      funext fun a => Fin.ext (by match a with | ⟨0, _⟩ => rfl | ⟨1, _⟩ => rfl | ⟨2, _⟩ => rfl | ⟨3, _⟩ => rfl)
    rw [e0, e1, e2]
    rfl
  · have e : idx_main_v4 (idx_main_v5 i) = ix3 (i 1) (i 2) (i 3) :=
      funext fun a => Fin.ext (by match a with | ⟨0, _⟩ => rfl | ⟨1, _⟩ => rfl | ⟨2, _⟩ => rfl)
    rw [e]
    rfl

end Cert.StyleProj

end
-- ==== Proof.Payload.lean ====
/-
  What one grid step stores, read at an index.

  A grid step holds the whole style matrix `x1` (32 × 512), the scale as a one-row matrix `x0` (1 × 512), a block of
  4096 basis vectors `x2` (4096 × 512) and the matching 4096 bias entries `x3` (1 × 4096). It multiplies the scale row
  into every row of the style matrix, contracts the result with the block of basis vectors over the 512 coordinates,
  starting from a zero accumulator, and adds the bias row to every row. At row `p` and column `q` that is

      ( Σ_{k < 512} (x0[0, k] · x1[p, k]) · x2[q, k] )  +  x3[0, q],

  the zero accumulator disappearing because `0 + x = x` for every extended real `x`.
-/
import proofs.«129459_j38766374814279_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.StyleProj

open Cert.KernelIdeal Cert.KernelIdeal.Gen Idealize.ShloMosaic Idealize.ShloMosaic.ValueIdx

/-- The contraction of one grid step: rows of a 32 × 512 matrix against rows of a 4096 × 512 matrix. -/
abbrev stepDot : DotDims S32x512 S4096x512 S32x4096 := dot_S32x512_S4096x512_S32x4096_1_1_0_0_n_n

theorem stepDot_lhs0 (j : S32x4096.Idx) (q : stepDot.contr.Idx) : (stepDot.lhsIdx j q 0).val = (j 0).val := by
  unfold DotDims.lhsIdx
  rw [dif_neg (show ¬(0 : Fin S32x512.rank) ∈ stepDot.lhsBatch by decide),
    dif_pos (show (0 : Fin S32x512.rank) ∈ stepDot.lhsNonContracting by decide)]
  rfl

theorem stepDot_lhs1 (j : S32x4096.Idx) (q : stepDot.contr.Idx) : (stepDot.lhsIdx j q 1).val = (q ⟨0, by decide⟩).val :=
  stepDot.lhsIdx_val_of_single rfl j q

theorem stepDot_rhs0 (j : S32x4096.Idx) (q : stepDot.contr.Idx) : (stepDot.rhsIdx j q 0).val = (j 1).val := by
  unfold DotDims.rhsIdx
  rw [dif_neg (show ¬(0 : Fin S4096x512.rank) ∈ stepDot.rhsBatch by decide),
    dif_pos (show (0 : Fin S4096x512.rank) ∈ stepDot.rhsNonContracting by decide)]
  rfl

theorem stepDot_rhs1 (j : S32x4096.Idx) (q : stepDot.contr.Idx) : (stepDot.rhsIdx j q 1).val = (q ⟨0, by decide⟩).val :=
  stepDot.rhsIdx_val_of_single rfl j q

/-- The contraction into a zero accumulator is the plain sum over the 512 shared coordinates. -/
theorem stepDot_apply (l : FVec Ideal S32x512 .f32) (r : FVec Ideal S4096x512 .f32) (p : Fin 32) (q : Fin 4096) :
    matmul stepDot none l r (constant (F := Ideal) S32x4096 .f32 0x00000000#32) (ix2 p q)
      = ∑ k : Fin 512, l (ix2 p k) * r (ix2 q k) := by
  refine (Ideal.matmul_constant_zero_apply stepDot none l r (ix2 p q)).trans ?_
  rw [← Equiv.sum_comp (contrEquiv1 stepDot 512 rfl rfl).symm]
  refine Finset.sum_congr rfl fun k _ => ?_
  have hk := contrEquiv1_symm_val stepDot 512 rfl rfl k
  have el : stepDot.lhsIdx (ix2 p q) ((contrEquiv1 stepDot 512 rfl rfl).symm k) = ix2 p k := funext fun a => Fin.ext (by
    match a with
    | ⟨0, _⟩ => exact stepDot_lhs0 _ _
    | ⟨1, _⟩ => exact (stepDot_lhs1 _ _).trans hk)
  have er : stepDot.rhsIdx (ix2 p q) ((contrEquiv1 stepDot 512 rfl rfl).symm k) = ix2 q k := funext fun a => Fin.ext (by
    match a with
    | ⟨0, _⟩ => exact stepDot_rhs0 _ _
    | ⟨1, _⟩ => exact (stepDot_rhs1 _ _).trans hk)
  rw [el, er]

/-- What a grid step stores at row `p`, column `q` of its output block. -/
theorem stored_apply (x0 : Vec Ideal S1x512 .f32) (x1 : Vec Ideal S32x512 .f32) (x2 : Vec Ideal S4096x512 .f32)
    (x3 : Vec Ideal S1x4096 .f32) (p : Fin 32) (q : Fin 4096) :
    k0_pay1 (F := Ideal) x0 x1 x2 x3 (ix2 p q)
      = (∑ k : Fin 512, (x0 (ix2 (0 : Fin 1) k) * x1 (ix2 p k)) * x2 (ix2 q k)) + x3 (ix2 (0 : Fin 1) q) := by
  unfold k0_pay1
  rw [shapeCast_self, shapeCast_self, shapeCast_self]
  refine congrArg₂ (· + ·) ?_ ?_
  · refine (stepDot_apply _ _ p q).trans ?_
    refine Finset.sum_congr rfl fun k _ => ?_
    refine congrArg (· * x2 (ix2 q k)) ?_
    exact congrArg (· * x1 (ix2 p k)) (broadcastTo_1b_ab_apply x0 broadcasts_S1x512_S32x512 p k)
  · exact broadcastTo_1b_ab_apply x3 broadcasts_S1x4096_S32x4096 p q

end Cert.StyleProj

end
-- ==== Proof.Flatten.lean ====
/-
  Addressing the basis vectors by one number changes nothing.

  A row-major re-reading of an array moves no entry: it only renames indices. The basis (64, 64, 32, 512) re-read as
  (131072, 512) puts vector `(r, s, c)` in row `n = (r·64 + s)·32 + c`; the bias (64, 64, 32) re-read as (1, 131072) puts
  its entry `(r, s, c)` in column `n`; the scale (512) re-read as (1, 512) keeps its coordinate; and the flat result
  (32, 131072) re-read as (32, 64, 64, 32) takes entry `(b, r, s, c)` from column `n` of row `b`. So the flat function of
  the re-read arrays, re-read, is `proj` of the arrays themselves.
-/
import proofs.«129459_j38766374814279_2_alg».proof.Proof.Spec
import Idealize.ShloMosaic.Lib.Pipeline.Value

noncomputable section

namespace Cert.StyleProj

open Idealize.ShloMosaic Idealize.ShloMosaic.ValueIdx

/-- The row-major number of the basis vector `(r, s, c)`. -/
def flatNo (r : Fin 64) (s : Fin 64) (c : Fin 32) : Fin 131072 :=
  ⟨(r.val * 64 + s.val) * 32 + c.val, by have := r.isLt; have := s.isLt; have := c.isLt; omega⟩

theorem proj_of_flat (style : FVec Ideal ⟨2, ![32, 512]⟩ .f32) (basis : FVec Ideal ⟨4, ![64, 64, 32, 512]⟩ .f32)
    (scale : FVec Ideal ⟨1, ![512]⟩ .f32) (bias : FVec Ideal ⟨3, ![64, 64, 32]⟩ .f32)
    (hScale : (⟨1, ![512]⟩ : Shape).ShapeCasts ⟨2, ![1, 512]⟩)
    (hBasis : (⟨4, ![64, 64, 32, 512]⟩ : Shape).ShapeCasts ⟨2, ![131072, 512]⟩)
    (hBias : (⟨3, ![64, 64, 32]⟩ : Shape).ShapeCasts ⟨2, ![1, 131072]⟩)
    (hOut : (⟨2, ![32, 131072]⟩ : Shape).ShapeCasts ⟨4, ![32, 64, 64, 32]⟩) :
    shapeCast ⟨4, ![32, 64, 64, 32]⟩
        (projFlat style (shapeCast ⟨2, ![131072, 512]⟩ basis hBasis) (shapeCast ⟨2, ![1, 512]⟩ scale hScale)
          (shapeCast ⟨2, ![1, 131072]⟩ bias hBias)) hOut
      = proj style basis scale bias := by
  funext i
  obtain ⟨b, r, s, c, rfl⟩ : ∃ (b : Fin 32) (r : Fin 64) (s : Fin 64) (c : Fin 32), i = ix4 b r s c :=
    ⟨i 0, i 1, i 2, i 3, eq_ix4 i⟩
  have hb := b.isLt; have hr := r.isLt; have hs := s.isLt; have hc := c.isLt
  refine (shapeCast_apply _ hOut (ix4 b r s c) (ix2 b (flatNo r s c)) (by
    rw [Shape.rowMajor_val_two, Shape.rowMajor_val_four]
    show b.val * 131072 + ((r.val * 64 + s.val) * 32 + c.val) = ((b.val * 64 + r.val) * 64 + s.val) * 32 + c.val
    omega)).trans ?_
  show projFlatAt style _ _ _ b (flatNo r s c) = projAt style basis scale bias b r s c
  unfold projFlatAt projAt
  refine congrArg₂ (· + ·) (Finset.sum_congr rfl fun k _ => ?_) ?_
  · have hk := k.isLt
    rw [shapeCast_apply scale hScale (ix2 (0 : Fin 1) k) (ix1 k) (by
        rw [Shape.rowMajor_val_one, Shape.rowMajor_val_two]
        show k.val = 0 * 512 + k.val
        omega),
      shapeCast_apply basis hBasis (ix2 (flatNo r s c) k) (ix4 r s c k) (by
        rw [Shape.rowMajor_val_four, Shape.rowMajor_val_two]
        show ((r.val * 64 + s.val) * 32 + c.val) * 512 + k.val = ((r.val * 64 + s.val) * 32 + c.val) * 512 + k.val
        rfl)]
  · exact shapeCast_apply bias hBias (ix2 (0 : Fin 1) (flatNo r s c)) (ix3 r s c) (by
      rw [Shape.rowMajor_val_three, Shape.rowMajor_val_two]
      show (r.val * 64 + s.val) * 32 + c.val = 0 * 131072 + ((r.val * 64 + s.val) * 32 + c.val)
      omega)

end Cert.StyleProj

end
-- ==== Proof.KernelValue.lean ====
/-
  The idealized kernel computes `proj`.

  The launch walks 32 grid steps. Step `t` sees the whole style matrix and the whole scale row, rows
  `4096·t … 4096·t + 4095` of the flat basis and the same columns of the flat bias, and writes columns
  `4096·t … 4096·t + 4095` of the flat result (all 32 rows). What it writes there is the flat function `projFlat` of the
  arrays the launch was given, read on those columns: the entry at row `p`, column `4096·t + q` is

      ( Σ_k (scaleRow[0, k] · style[p, k]) · basisRows[4096·t + q, k] )  +  biasRow[0, 4096·t + q].

  Column `n` lies in step `n / 4096`, so the 32 steps cover the flat result and it ends equal to `projFlat` everywhere.
  The arrays the launch is given are row-major re-readings of the arguments, and the program's result is the row-major
  re-reading of the flat result, which is `proj` of the arguments.
-/
import proofs.«129459_j38766374814279_2_alg».proof.Proof.Gen.KernelIdeal.Frame
import proofs.«129459_j38766374814279_2_alg».proof.Proof.Payload
import proofs.«129459_j38766374814279_2_alg».proof.Proof.Flatten
import Idealize.ShloMosaic.Lib.Pipeline.Value
import Idealize.ShloMosaic.Lib.StableHlo.Run

noncomputable section

namespace Cert.StyleProj

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The flat result, as a function of the arrays the launch is given -/

/-- `projFlat` of the four arrays as the launch finds them on core `c`. -/
def flatOf (c : Dev nD) : S32x131072.Idx → EReal :=
  projFlat (V m c main_arg0) (V m c main_v1) (V m c main_v0) (V m c main_v2)

theorem offZero : (![0, 0] : Fin 2 → Nat) = fun _ => 0 := funext fun a => by fin_cases a <;> rfl

/-- Where each window's block sits at step `t`: the style matrix and the scale row are always block (0, 0); the basis
    block is the `t`-th block of rows, the bias and output blocks the `t`-th block of columns; there are 32 steps. -/
theorem blockAt : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) = 0 ∧ win0_4.index t (1 : Fin 2) ≤ 31 :=
  (by decide +kernel : ∀ t : Fin grid0.N, _)

/-- Every block of columns of the flat result is some step's. -/
theorem blockOnto : ∀ q : Fin 32, ∃ t : Fin cfg0.N, win0_4.index t = ![0, q.val] :=
  (by decide +kernel : ∀ q : Fin 32, ∃ t : Fin grid0.N, win0_4.index t = ![0, q.val])

/-! ## Each input block, read where the output block's columns say -/

theorem read_style (c : Dev nD) (t : Fin cfg0.N) (p : Fin 32) (k : Fin 512) :
    iblk m c 0 t (ix2 p k) = V m c main_arg0 (ix2 p k) := by
  obtain ⟨e00, e01, -⟩ := blockAt t
  show V m c main_arg0 (((cfg0.win 0).blk t).view.emb (ix2 p k)) = V m c main_arg0 (ix2 p k)
  refine congrArg _ (funext fun a => Fin.ext ?_)
  match a with
  | ⟨0, _⟩ => show win0_0.index t (0 : Fin 2) * 32 + 1 * p.val = p.val; omega
  | ⟨1, _⟩ => show win0_0.index t (1 : Fin 2) * 512 + 1 * k.val = k.val; omega

theorem read_scale (c : Dev nD) (t : Fin cfg0.N) (k : Fin 512) :
    iblk m c 1 t (ix2 (0 : Fin 1) k) = V m c main_v0 (ix2 (0 : Fin 1) k) := by
  obtain ⟨-, -, e10, e11, -⟩ := blockAt t
  show V m c main_v0 (((cfg0.win 1).blk t).view.emb (ix2 (0 : Fin 1) k)) = V m c main_v0 (ix2 (0 : Fin 1) k)
  refine congrArg _ (funext fun a => Fin.ext ?_)
  match a with
  | ⟨0, _⟩ => show win0_1.index t (0 : Fin 2) * 1 + 1 * 0 = 0; omega
  | ⟨1, _⟩ => show win0_1.index t (1 : Fin 2) * 512 + 1 * k.val = k.val; omega

/-- Column `q` of step `t`'s block is column `4096·t + q` of the flat arrays. -/
def colOf (t : Fin cfg0.N) (q : Fin 4096) : Fin 131072 :=
  ⟨win0_4.index t (1 : Fin 2) * 4096 + q.val, by
    obtain ⟨-, -, -, -, -, -, -, -, -, e⟩ := blockAt t
    have := q.isLt
    omega⟩

theorem read_basis (c : Dev nD) (t : Fin cfg0.N) (q : Fin 4096) (k : Fin 512) :
    iblk m c 2 t (ix2 q k) = V m c main_v1 (ix2 (colOf t q) k) := by
  obtain ⟨-, -, -, -, e20, e21, -⟩ := blockAt t
  show V m c main_v1 (((cfg0.win 2).blk t).view.emb (ix2 q k)) = V m c main_v1 (ix2 (colOf t q) k)
  refine congrArg _ (funext fun a => Fin.ext ?_)
  match a with
  | ⟨0, _⟩ => show win0_2.index t (0 : Fin 2) * 4096 + 1 * q.val = win0_4.index t (1 : Fin 2) * 4096 + q.val; omega
  | ⟨1, _⟩ => show win0_2.index t (1 : Fin 2) * 512 + 1 * k.val = k.val; omega

theorem read_bias (c : Dev nD) (t : Fin cfg0.N) (q : Fin 4096) :
    iblk m c 3 t (ix2 (0 : Fin 1) q) = V m c main_v2 (ix2 (0 : Fin 1) (colOf t q)) := by
  obtain ⟨-, -, -, -, -, -, e30, e31, -⟩ := blockAt t
  show V m c main_v2 (((cfg0.win 3).blk t).view.emb (ix2 (0 : Fin 1) q)) = V m c main_v2 (ix2 (0 : Fin 1) (colOf t q))
  refine congrArg _ (funext fun a => Fin.ext ?_)
  match a with
  | ⟨0, _⟩ => show win0_3.index t (0 : Fin 2) * 1 + 1 * 0 = 0; omega
  | ⟨1, _⟩ => show win0_3.index t (1 : Fin 2) * 4096 + 1 * q.val = win0_4.index t (1 : Fin 2) * 4096 + q.val; omega

/-! ## What one step leaves in the output block -/

/-- The output block after the body, entry by entry, from the four input blocks (any contents). -/
theorem stored_block (x0 : Vec Ideal S32x512 .f32) (x1 : Vec Ideal S1x512 .f32) (x2 : Vec Ideal S4096x512 .f32)
    (x3 : Vec Ideal S1x4096 .f32) (p : Fin 32) (q : Fin 4096) :
    out0_4 (F := Ideal) x0 x1 x2 x3 (ix2 p q)
      = (∑ k : Fin 512, (x1 (ix2 (0 : Fin 1) k) * x0 (ix2 p k)) * x2 (ix2 q k)) + x3 (ix2 (0 : Fin 1) q) := by
  unfold out0_4
  rw [View.canon_unit_zero offZero]
  simp only [View.ld_unit_zero (S := S1x512) offZero, View.ld_unit_zero (S := S32x512) offZero,
    View.ld_unit_zero (S := S4096x512) offZero, View.ld_unit_zero (S := S1x4096) offZero]
  exact stored_apply x1 x0 x2 x3 p q

/-- WHAT STEP `t` WRITES BACK is block `t` of the flat function. -/
theorem flushed_eq (c : Dev nD) (t : Fin cfg0.N) :
    (dats m 0 c).flushed 4 t = ((cfg0.win 4).blk t).view.read (Elt Ideal) (flatOf m c) := by
  show (cfg0.win 4).cut (grid0.coords t) ((dats m 0 c).after 4 t) = _
  rw [after0_4]
  obtain ⟨-, -, -, -, -, -, -, -, e40, e41⟩ := blockAt t
  refine funext fun (j : S32x4096.Idx) => ?_
  obtain ⟨p, q, rfl⟩ : ∃ (p : Fin 32) (q : Fin 4096), j = ix2 p q := ⟨j 0, j 1, eq_ix2 j⟩
  have hp := p.isLt
  have hq := q.isLt
  have hrow : (((cfg0.win 4).blk t).view.emb (ix2 p q) 0 : Fin 32) = p :=
    Fin.ext (by show win0_4.index t (0 : Fin 2) * 32 + 1 * p.val = p.val; omega)
  have hcol : (((cfg0.win 4).blk t).view.emb (ix2 p q) 1 : Fin 131072) = colOf t q :=
    Fin.ext (by show win0_4.index t (1 : Fin 2) * 4096 + 1 * q.val = win0_4.index t (1 : Fin 2) * 4096 + q.val; omega)
  refine Eq.trans ?_ (congrArg₂ (projFlatAt (V m c main_arg0) (V m c main_v1) (V m c main_v0) (V m c main_v2)) hrow hcol).symm
  refine (stored_block (iblk m c 0 t) (iblk m c 1 t) (iblk m c 2 t) (iblk m c 3 t) p q).trans ?_
  unfold projFlatAt
  refine congrArg₂ (· + ·) (Finset.sum_congr rfl fun k _ => ?_) (read_bias m c t q)
  rw [read_scale m c t k, read_style m c t p k, read_basis m c t q k]

/-! ## The steps cover the flat result -/

theorem mem_blk (t : Fin cfg0.N) (i : S32x131072.Idx) :
    i ∈ ((cfg0.win 4).blk t).view.set ↔ ∀ a : Fin 2, win0_4.index t a * S32x4096.size a ≤ (i a).val ∧ (i a).val < win0_4.index t a * S32x4096.size a + S32x4096.size a := by
  show i ∈ ((View.whole main_v3).slice (win0_4.rect t)).set ↔ _
  rw [View.set_slice_whole, Rect.mem_set_unit]
  exact Iff.rfl

theorem covered (i : S32x131072.Idx) :
    ∃ t : Fin cfg0.N, (cfg0.win 4).flush t = true ∧ i ∈ ((cfg0.win 4).blk t).view.set := by
  have hi0 : (i 0).val < 32 := (i 0).isLt
  have hi1 : (i 1).val < 131072 := (i 1).isLt
  obtain ⟨t, ht⟩ := blockOnto ⟨(i 1).val / 4096, by omega⟩
  have q0 : win0_4.index t (0 : Fin 2) = 0 := congrFun ht 0
  have q1 : win0_4.index t (1 : Fin 2) = (i 1).val / 4096 := congrFun ht 1
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 4096 ≤ (i 1).val ∧ (i 1).val < win0_4.index t (1 : Fin 2) * 4096 + 4096; omega

/-- THE FLAT RESULT after the launch is the flat function. -/
theorem flat_final (c : Dev nD) : (dats m 0 c).arrAt 4 cfg0.N = flatOf m c :=
  (dats m 0 c).arrAt_eq_of_cover 4 (flatOf m c) (fun t _ => flushed_eq m c t) covered

end Cert.StyleProj

end
-- ==== Proof.KernelRun.lean ====
/-
  The idealized kernel's whole program, read as a value.

  Before the launch the program re-reads three arguments in row-major order: the scale (512) as one row (1, 512), the
  basis (64, 64, 32, 512) as 131072 rows (131072, 512), the bias (64, 64, 32) as one row (1, 131072). The style matrix is
  passed as it is. After the launch it re-reads the flat result (32, 131072) as (32, 64, 64, 32). The launch leaves the
  flat result equal to `projFlat` of the arrays it was given, so the program's result is `proj` of the arguments, and no
  argument array is written.
-/
import proofs.«129459_j38766374814279_2_alg».proof.Proof.KernelValue

noncomputable section

namespace Cert.StyleProj

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the launch is given -/

/-- The scale as the launch finds it: the argument re-read as one row. -/
theorem given_scaleRow (c : Dev nD) :
    (V m c main_v0 : S1x512.Idx → EReal) = shapeCast S1x512 (m ((c : Thread nD τ).loc main_arg2)) shapeCasts_S512_S1x512 := by
  show StableHlo.after hostOps0 (fun b => m (c, b)) (Proc.devRef .tc main_v0) = _
  after_results
  rfl

/-- The basis as the launch finds it: the argument re-read as 131072 rows. -/
theorem given_basisRows (c : Dev nD) :
    (V m c main_v1 : S131072x512.Idx → EReal)
      = shapeCast S131072x512 (m ((c : Thread nD τ).loc main_arg1)) shapeCasts_S64x64x32x512_S131072x512 := by
  show StableHlo.after hostOps0 (fun b => m (c, b)) (Proc.devRef .tc main_v1) = _
  after_results
  rfl

/-- The bias as the launch finds it: the argument re-read as one row. -/
theorem given_biasRow (c : Dev nD) :
    (V m c main_v2 : S1x131072.Idx → EReal)
      = shapeCast S1x131072 (m ((c : Thread nD τ).loc main_arg3)) shapeCasts_S64x64x32_S1x131072 := by
  show StableHlo.after hostOps0 (fun b => m (c, b)) (Proc.devRef .tc main_v2) = _
  after_results
  rfl

/-- So the flat function of the arrays the launch is given is the flat function of the re-read arguments. -/
theorem flatOf_args (c : Dev nD) :
    flatOf m c = projFlat (m ((c : Thread nD τ).loc main_arg0))
      (shapeCast S131072x512 (m ((c : Thread nD τ).loc main_arg1)) shapeCasts_S64x64x32x512_S131072x512)
      (shapeCast S1x512 (m ((c : Thread nD τ).loc main_arg2)) shapeCasts_S512_S1x512)
      (shapeCast S1x131072 (m ((c : Thread nD τ).loc main_arg3)) shapeCasts_S64x64x32_S1x131072) := by
  unfold flatOf
  rw [V_main_arg0 m c, given_scaleRow m c, given_basisRows m c, given_biasRow m c]

/-! ## The program's result -/

/-- The result buffer after the last line of the program: the flat result re-read, which is `proj` of the arguments. -/
theorem result_eq (c : Dev nD) :
    Pipeline.afterTail₀ cfgs (dats m) 0 (V0 m) [hostOps1] c main_v4
      = proj (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  rw [Pipeline.withArrays_arr spec0 launch0.win.arr_inj c _ _ 4, flat_final m c, flatOf_args m c]
  exact proj_of_flat _ _ _ _ shapeCasts_S512_S1x512 shapeCasts_S64x64x32x512_S131072x512
    shapeCasts_S64x64x32_S1x131072 shapeCasts_S32x131072_S32x64x64x32

/-- THE RUN: every weakly fair execution of the idealized kernel's program terminates without a fault, with the result
    at `proj` of the arguments and the arguments as they were. -/
theorem run : θ_run defs (onTc (τ := τ) (main (F := Ideal))) ⟨m, fun _ => 0, ρ⟩ fun r => ∀ c : Dev nD,
      r.2.mem ((c.tc : Thread nD τ).loc main_v4)
        = proj (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v4 (Pipeline.mem_restRefs_of main_v4 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.StyleProj

end
-- ==== Proof.lean ====
/-
  A batch of 32 style vectors of length 512 is scaled coordinate by coordinate by a vector `ℓ` and projected onto
  64·64·32 basis vectors, and a bias is added:

      out[b, r, s, c]  =  ( Σ_{d < 512}  (ℓ[d] · style[b, d]) · U[r, s, c, d] )  +  μ[r, s, c].

  The kernel numbers the basis vectors `n = (r·64 + s)·32 + c`, walks them in 32 blocks of 4096, and in each block
  forms the scaled style matrix, contracts it with the block's 4096 vectors starting from a zero accumulator, and adds
  the block's bias entries. The reference scales, contracts over the last axis with the basis left in its four axes,
  and adds the bias broadcast along the batch axis. Over the extended reals both are the sum above: the products are
  taken in the same order on both sides, a block of the flat result is the flat function read on that block's columns,
  the blocks cover the flat result, re-reading an array in row-major order moves no entry, and the zero accumulator
  goes away because `0 + x = x` for every extended real `x`. No step distributes, cancels or moves a factor across the
  sum, so the inputs' finiteness is never used.

  The idealization rewrote no operation, so the kernel is its own idealization and that conjunct is `True`. The two
  kernel programs terminate without a fault and leave their arguments alone by their frame runs; the reference does by
  its run, read with the result dropped.
-/
import proofs.«129459_j38766374814279_2_alg».proof.Defs
import proofs.«129459_j38766374814279_2_alg».proof.Proof.Gen.Kernel
import proofs.«129459_j38766374814279_2_alg».proof.Proof.Gen.Kernel.Skeleton
import proofs.«129459_j38766374814279_2_alg».proof.Proof.Gen.Kernel.Launch
import proofs.«129459_j38766374814279_2_alg».proof.Proof.Gen.Kernel.Points
import proofs.«129459_j38766374814279_2_alg».proof.Proof.Gen.Kernel.Frame
import proofs.«129459_j38766374814279_2_alg».proof.Proof.Gen.KernelIdeal
import proofs.«129459_j38766374814279_2_alg».proof.Proof.Gen.KernelIdeal.Skeleton
import proofs.«129459_j38766374814279_2_alg».proof.Proof.Gen.KernelIdeal.Launch
import proofs.«129459_j38766374814279_2_alg».proof.Proof.Gen.KernelIdeal.Points
import proofs.«129459_j38766374814279_2_alg».proof.Proof.Gen.KernelIdeal.Frame
import proofs.«129459_j38766374814279_2_alg».proof.Proof.Gen.ReferenceIdeal
import proofs.«129459_j38766374814279_2_alg».proof.Proof.Gen.ReferenceIdeal.Run
import proofs.«129459_j38766374814279_2_alg».proof.Proof.Gen.ReferenceIdeal.Read
import proofs.«129459_j38766374814279_2_alg».proof.Proof.Gen.Pre_finite_inputs
import proofs.«129459_j38766374814279_2_alg».proof.Proof.RefValue
import proofs.«129459_j38766374814279_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the four arguments, the idealized kernel ends with its result at `proj` of its
    arguments and the idealized reference at `proj` of its own, which are the same arrays. -/
theorem algebraic : Cert.algebraic_KernelIdeal_ReferenceIdeal := by
  intro m ρ m' ρ' _ hagree
  refine ⟨fun c => Cert.StyleProj.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.StyleProj.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.StyleProj.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
